-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S_ : Shape := ⟨0, ![]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S4096x4096 : S_.BroadcastsInDim S4096x4096 (![] : Fin 0 → Fin S4096x4096.rank)
  reducesTo_S4096x4096_S_d0_1 : S4096x4096.ReducesTo [0, 1] S_
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x1_S_d0_1 : S4096x1.ReducesTo [0, 1] S_
  dot_S4096x768_S768x256_S4096x256_1_0_0_1_n_n_wf : DotDims.WF S4096x768 S768x256 S4096x256 [1] [0] [0] [1] [] []

variable [Facts]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def fn_part3 {F : FTy → Type} [FloatOps F] (main_arg1 : FVec F S4096x768 .f32) (main_arg4 : FVec F S768x256 .f32) (main_arg5 : FVec F S256 .f32) (main_v43 : IVec S_ 1) (main_v51 : FVec F S4096x1 .f32) (main_cst_17 : FVec F S_ .f32) : IVec S_ 1 :=
  let main_v52 : FVec F S4096x1 .f32 := broadcastInDim S4096x1 ![] bcast_S_S4096x1 main_cst_17
  let main_v53 : IVec S4096x1 1 := cmpf .ogt main_v51 main_v52
  let main_c_18 : IVec S_ 1 := constantI S_ 1 1#1
  let main_v54 : IVec S_ 1 := (fun x v => Host.reduce IntOp.andi x v reducesTo_S4096x1_S_d0_1 h_S_) main_v53 main_c_18
  let main_v55 : IVec S_ 1 := andi main_v43 main_v54
  let main_v56 : FVec F S4096x256 .f32 := (fun l r => Host.dotGeneral dot_S4096x768_S768x256_S4096x256_1_0_0_1_n_n none l r) main_arg1 main_arg4
  let main_v57 : FVec F S1x256 .f32 := broadcastInDim S1x256 ![1] bcast_S256_S1x256_1 main_arg5
  let main_v58 : FVec F S4096x256 .f32 := broadcastInDim S4096x256 ![0, 1] bcast_S1x256_S4096x256_0_1 main_v57
  let main_v59 : FVec F S4096x256 .f32 := addf main_v56 main_v58
  let main_v60 : FVec F S4096x256 .f32 := mulf main_v59 main_v59
  let main_cst_19 : FVec F S_ .f32 := constant S_ .f32 0x00000000#32
  let main_v61 : FVec F S4096 .f32 := (fun x v => Host.reduceAdd x v reducesTo_S4096x256_S4096_d1 h_S_) main_v60 main_cst_19
  let main_v62 : FVec F S4096x1 .f32 := broadcastInDim S4096x1 ![0] bcast_S4096_S4096x1_0 main_v61
  let main_v63 : FVec F S4096x1 .f32 := Host.sqrt main_v62
  let main_cst_20 : FVec F S_ .f32 := constant S_ .f32 0x00000000#32
  let main_v64 : FVec F S4096x1 .f32 := broadcastInDim S4096x1 ![] bcast_S_S4096x1 main_cst_20
  let main_v65 : IVec S4096x1 1 := cmpf .ogt main_v63 main_v64
  let main_c_21 : IVec S_ 1 := constantI S_ 1 1#1
  let main_v66 : IVec S_ 1 := (fun x v => Host.reduce IntOp.andi x v reducesTo_S4096x1_S_d0_1 h_S_) main_v65 main_c_21
  let main_v67 : IVec S_ 1 := andi main_v55 main_v66
  main_v67

def fn_part2 {F : FTy → Type} [FloatOps F] (main_arg0 : FVec F S4096x768 .f32) (main_arg1 : FVec F S4096x768 .f32) (main_arg2 : FVec F S768x256 .f32) (main_arg3 : FVec F S256 .f32) (main_arg4 : FVec F S768x256 .f32) (main_arg5 : FVec F S256 .f32) (main_arg7 : FVec F S1 .f32) (main_arg8 : FVec F S4096x4096 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x256 .f32 := (fun l r => Host.dotGeneral dot_S4096x768_S768x256_S4096x256_1_0_0_1_n_n none l r) main_arg0 main_arg2
  let main_v45 : FVec F S1x256 .f32 := broadcastInDim S1x256 ![1] bcast_S256_S1x256_1 main_arg3
  let main_v46 : FVec F S4096x256 .f32 := broadcastInDim S4096x256 ![0, 1] bcast_S1x256_S4096x256_0_1 main_v45
  let main_v47 : FVec F S4096x256 .f32 := addf main_v44 main_v46
  let main_v48 : FVec F S4096x256 .f32 := mulf main_v47 main_v47
  let main_cst_16 : FVec F S_ .f32 := constant S_ .f32 0x00000000#32
  let main_v49 : FVec F S4096 .f32 := (fun x v => Host.reduceAdd x v reducesTo_S4096x256_S4096_d1 h_S_) main_v48 main_cst_16
  let main_v50 : FVec F S4096x1 .f32 := broadcastInDim S4096x1 ![0] bcast_S4096_S4096x1_0 main_v49
  let main_v51 : FVec F S4096x1 .f32 := Host.sqrt main_v50
  let main_cst_17 : FVec F S_ .f32 := constant S_ .f32 0x00000000#32
  fn_part3 (F := F) main_arg1 main_arg4 main_arg5 main_v43 main_v51 main_cst_17

def fn_part1 {F : FTy → Type} [FloatOps F] (main_arg0 : FVec F S4096x768 .f32) (main_arg1 : FVec F S4096x768 .f32) (main_arg2 : FVec F S768x256 .f32) (main_arg3 : FVec F S256 .f32) (main_arg4 : FVec F S768x256 .f32) (main_arg5 : FVec F S256 .f32) (main_arg6 : FVec F S512x1 .f32) (main_arg7 : FVec F S1 .f32) (main_arg8 : FVec F S4096x4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S768x256 .f32 := Host.absf main_arg4
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg0 main_arg1 main_arg2 main_arg3 main_arg4 main_arg5 main_arg7 main_arg8 main_v33

def fn {F : FTy → Type} [FloatOps F] (main_arg0 : FVec F S4096x768 .f32) (main_arg1 : FVec F S4096x768 .f32) (main_arg2 : FVec F S768x256 .f32) (main_arg3 : FVec F S256 .f32) (main_arg4 : FVec F S768x256 .f32) (main_arg5 : FVec F S256 .f32) (main_arg6 : FVec F S512x1 .f32) (main_arg7 : FVec F S1 .f32) (main_arg8 : FVec F S4096x4096 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg2 main_arg3 main_arg4 main_arg5 main_arg6 main_arg7 main_arg8 main_v13 main_v16
-- ==== Kernel.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S1x1 : Shape := ⟨2, ![1, 1]⟩
abbrev S1024x256 : Shape := ⟨2, ![1024, 256]⟩
abbrev S1024x1 : Shape := ⟨2, ![1024, 1]⟩
abbrev S1024x1024 : Shape := ⟨2, ![1024, 1024]⟩
abbrev S256x1024 : Shape := ⟨2, ![256, 1024]⟩
abbrev S1x1024 : Shape := ⟨2, ![1, 1024]⟩

abbrev nBuf : Space → Nat
  | .hbm => 45
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x256, .f32⟩
  | .hbm, ⟨3, _⟩ => ⟨S256, .f32⟩
  | .hbm, ⟨4, _⟩ => ⟨S768x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S4096x4096, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S1x4096, .f32⟩
  | .hbm, ⟨34, _⟩ => ⟨S256x1, .f32⟩
  | .hbm, ⟨35, _⟩ => ⟨S256x1, .f32⟩
  | .hbm, ⟨36, _⟩ => ⟨S4096x1, .f32⟩
  | .hbm, ⟨37, _⟩ => ⟨S1x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S1x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .local _ .vmem, ⟨0, _⟩ => ⟨S1024x256, .f32⟩
  | .local _ .vmem, ⟨1, _⟩ => ⟨S1024x256, .f32⟩
  | .local _ .vmem, ⟨2, _⟩ => ⟨S4096x256, .f32⟩
  | .local _ .vmem, ⟨3, _⟩ => ⟨S1024x1, .f32⟩
  | .local _ .vmem, ⟨4, _⟩ => ⟨S1024x1, .f32⟩
  | .local _ .vmem, ⟨5, _⟩ => ⟨S1x4096, .f32⟩
  | .local _ .vmem, ⟨6, _⟩ => ⟨S1024x1, .f32⟩
  | .local _ .vmem, ⟨7, _⟩ => ⟨S1024x1, .f32⟩
  | .local _ .vmem, ⟨8, _⟩ => ⟨S1x4096, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_1 : Index := 0#32
  ![v4.toNat, 0]
def k0_off2 (i : grid0.Coords) : Fin 2 → Nat :=
  let c0_4 : Index := 0#32
  let arg1 : BitVec 32 := BitVec.ofNat 32 (i 1).val
  let c1024_i32 : BitVec 32 := 1024#32
  let v0 : BitVec 32 := Scalar.muli arg1 c1024_i32
  let v1 : BitVec 32 := v0
  let v11 : Index := Scalar.indexCast v1
  ![0, v11.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S1x4096 : S4096x1.ShapeCasts S1x4096
  slices_S512x1_S256x1_0_0 : S512x1.Slices ![0, 0] S256x1
  slices_S512x1_S256x1_256_0 : S512x1.Slices ![256, 0] S256x1
  shapeCasts_S1_S1x1 : S1.ShapeCasts S1x1
  bcast_S1x1_S4096x1_0_1 : S1x1.BroadcastsInDim S4096x1 (![0, 1] : Fin 2 → Fin S4096x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S4096x768_S768x256_S4096x256_1_0_0_1_n_n_wf : DotDims.WF S4096x768 S768x256 S4096x256 [1] [0] [0] [1] [] []
  dot_S4096x256_S256x1_S4096x1_1_0_0_1_n_n_wf : DotDims.WF S4096x256 S256x1 S4096x1 [1] [0] [0] [1] [] []
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x4096.size a
  hwx0_7 : ∀ i : grid0.Coords, EltTy.bits .f32 = 32 ∨ (Rect.block (s := S4096x4096) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S4096x4096.size a
  hwx0_8 : ∀ i : grid0.Coords, EltTy.bits .f32 = 32 ∨ (Rect.block (s := S4096x4096) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S4096x4096.size a
  hwx0_9 : ∀ i : grid0.Coords, EltTy.bits .f32 = 32 ∨ (Rect.block (s := S4096x4096) S1024x1024.size (cc0_transform_9 i) (hinb0_9 i)).WholeWords (EltTy.packing .f32)

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v3) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v23_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x768 : Shape := ⟨2, ![4096, 768]⟩
abbrev S768x256 : Shape := ⟨2, ![768, 256]⟩
abbrev S256 : Shape := ⟨1, ![256]⟩
abbrev S512x1 : Shape := ⟨2, ![512, 1]⟩
abbrev S1 : Shape := ⟨1, ![1]⟩
abbrev S4096x4096 : Shape := ⟨2, ![4096, 4096]⟩
abbrev S4096x256 : Shape := ⟨2, ![4096, 256]⟩
abbrev S1x256 : Shape := ⟨2, ![1, 256]⟩
abbrev S256x4096 : Shape := ⟨2, ![256, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S768x256, .f32⟩
  | .hbm, ⟨3, _⟩ => ⟨S256, .f32⟩
  | .hbm, ⟨4, _⟩ => ⟨S768x256, .f32⟩
  | .hbm, ⟨5, _⟩ => ⟨S256, .f32⟩
  | .hbm, ⟨6, _⟩ => ⟨S512x1, .f32⟩
  | .hbm, ⟨7, _⟩ => ⟨S1, .f32⟩
  | .hbm, ⟨8, _⟩ => ⟨S4096x4096, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S256x4096, .f32⟩
  | .hbm, ⟨18, _⟩ => ⟨S4096x4096, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S256x1, .f32⟩
  | .hbm, ⟨33, _⟩ => ⟨S256x1, .f32⟩
  | .hbm, ⟨34, _⟩ => ⟨S4096x1, .f32⟩
  | .hbm, ⟨35, _⟩ => ⟨S4096x1, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  reducesTo_S4096x256_S4096_d1 : S4096x256.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  slices_S512x1_S256x1_0_0 : S512x1.Slices ![0, 0] S256x1
  slices_S512x1_S256x1_256_0 : S512x1.Slices ![256, 0] S256x1
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  dot_S4096x768_S768x256_S4096x256_1_0_0_1_n_n_wf : DotDims.WF S4096x768 S768x256 S4096x256 [1] [0] [0] [1] [] []
  dot_S4096x256_S256x4096_S4096x4096_1_0_0_1_n_n_wf : DotDims.WF S4096x256 S256x4096 S4096x4096 [1] [0] [0] [1] [] []
  dot_S4096x1_S1x4096_S4096x4096_1_0_0_1_n_n_wf : DotDims.WF S4096x1 S1x4096 S4096x4096 [1] [0] [0] [1] [] []
  dot_S4096x256_S256x1_S4096x1_1_0_0_1_n_n_wf : DotDims.WF S4096x256 S256x1 S4096x1 [1] [0] [0] [1] [] []

variable [Facts₀]

def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.TileValue.lean ====
/-
  What one grid point leaves in each of the three output tiles, as a value.

  The body makes one covering store per output tile, so what a tile holds after the body is that store's value:
  the similarity, the causal term, and their combination, each a function of the blocks the body loaded. Five of
  the seven input blocks are read whole; the text features and the two row vectors live whole in on-chip memory
  and the body reads the 1024 rows (or lanes) starting at 1024 times the point's column coordinate out of them.
-/
import proofs.«154794_j90598040141832_2_alg».proof.Proof.Gen.KernelIdeal.Frame
import Idealize.ShloMosaic.Lib.Pipeline.Value
import Idealize.ShloMosaic.Lib.Tactic

set_option maxRecDepth 16384

noncomputable section

namespace Cert.CosineTile

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The combined tile (output window 7). -/
theorem final_tile (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .f32) (harg6 : arg6.IsWhole) (arg7 : Memref sig .tc .vmem S1x4096 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole)
    (x0 : Vec F S1024x256 .f32) (x1 : Vec F S4096x256 .f32) (x2 : Vec F S1024x1 .f32) (x3 : Vec F S1x4096 .f32) (x4 : Vec F S1024x1 .f32) (x5 : Vec F S1x4096 .f32) (x6 : Vec F S1024x1024 .f32) :
    out0_A_7 c i arg2 harg2 arg3 harg3 arg4 harg4 arg5 harg5 arg6 harg6 arg7 harg7 arg8 harg8 arg9 harg9 arg10 harg10 arg11 harg11 x0 x1 x2 x3 x4 x5 x6 = k0_pay3 x0 (View.ld x1 (Rect.unit (s := S4096x256) (k0_off1 i) S1024x256.size (k0_off1_inb i))) x2 (View.ld x3 (Rect.unit (s := S1x4096) (k0_off2 i) S1x1024.size (k0_off2_inb i))) x4 (View.ld x5 (Rect.unit (s := S1x4096) (k0_off2 i) S1x1024.size (k0_off2_inb i))) x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero hz]
  simp only [View.readAt_eq_ld, harg2.read_unread, harg3.read_unread, harg4.read_unread, harg5.read_unread,
    harg6.read_unread, harg7.read_unread, harg8.read_unread, View.ld_unit_zero (S := S1024x256) hz,
    View.ld_unit_zero (S := S1024x1) hz, View.ld_unit_zero (S := S1024x1024) hz]

/-- The similarity tile (output window 8). -/
theorem similarity_tile (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .f32) (harg6 : arg6.IsWhole) (arg7 : Memref sig .tc .vmem S1x4096 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole)
    (x0 : Vec F S1024x256 .f32) (x1 : Vec F S4096x256 .f32) (x2 : Vec F S1024x1 .f32) (x3 : Vec F S1x4096 .f32) (x4 : Vec F S1024x1 .f32) (x5 : Vec F S1x4096 .f32) (x6 : Vec F S1024x1024 .f32) :
    out0_A_8 c i arg2 harg2 arg3 harg3 arg4 harg4 arg5 harg5 arg6 harg6 arg7 harg7 arg8 harg8 arg9 harg9 arg10 harg10 arg11 harg11 x0 x1 x2 x3 x4 x5 x6 = k0_pay1 x0 (View.ld x1 (Rect.unit (s := S4096x256) (k0_off1 i) S1024x256.size (k0_off1_inb i))) x2 (View.ld x3 (Rect.unit (s := S1x4096) (k0_off2 i) S1x1024.size (k0_off2_inb i))) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero hz]
  simp only [View.readAt_eq_ld, harg2.read_unread, harg3.read_unread, harg4.read_unread, harg5.read_unread,
    harg6.read_unread, harg7.read_unread, harg8.read_unread, View.ld_unit_zero (S := S1024x256) hz,
    View.ld_unit_zero (S := S1024x1) hz, View.ld_unit_zero (S := S1024x1024) hz]

/-- The causal tile (output window 9). -/
theorem causal_tile (c : Dev nD) (i : grid0.Coords) (arg2 : Memref sig .tc .vmem S1024x256 .f32) (harg2 : arg2.IsWhole) (arg3 : Memref sig .tc .vmem S4096x256 .f32) (harg3 : arg3.IsWhole) (arg4 : Memref sig .tc .vmem S1024x1 .f32) (harg4 : arg4.IsWhole) (arg5 : Memref sig .tc .vmem S1x4096 .f32) (harg5 : arg5.IsWhole) (arg6 : Memref sig .tc .vmem S1024x1 .f32) (harg6 : arg6.IsWhole) (arg7 : Memref sig .tc .vmem S1x4096 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole)
    (x0 : Vec F S1024x256 .f32) (x1 : Vec F S4096x256 .f32) (x2 : Vec F S1024x1 .f32) (x3 : Vec F S1x4096 .f32) (x4 : Vec F S1024x1 .f32) (x5 : Vec F S1x4096 .f32) (x6 : Vec F S1024x1024 .f32) :
    out0_A_9 c i arg2 harg2 arg3 harg3 arg4 harg4 arg5 harg5 arg6 harg6 arg7 harg7 arg8 harg8 arg9 harg9 arg10 harg10 arg11 harg11 x0 x1 x2 x3 x4 x5 x6 = k0_pay2 x4 (View.ld x5 (Rect.unit (s := S1x4096) (k0_off2 i) S1x1024.size (k0_off2_inb i))) x6 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero hz]
  simp only [View.readAt_eq_ld, harg2.read_unread, harg3.read_unread, harg4.read_unread, harg5.read_unread,
    harg6.read_unread, harg7.read_unread, harg8.read_unread, View.ld_unit_zero (S := S1024x256) hz,
    View.ld_unit_zero (S := S1024x1) hz, View.ld_unit_zero (S := S1024x1024) hz]

end Cert.CosineTile

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyValue.lean ====
/-
  The kernel body's three stored values, read at one entry of the 1024 x 1024 tile, on the extended reals.

  At tile entry (p, q) the body forms
    * the similarity  `((sum_k a[p, k] * b[q, k]) * u[p, 0]) * w[0, q]`: a matrix product against the transposed text
      tile into a zero accumulator (so just the sum over the 256 feature coordinates), scaled by a column `u`
      broadcast along the rows and a row `w` broadcast down the columns;
    * the causal term  `e[p, q] * (g[p, 0] + h[0, q])`;
    * their combination  `similarity + c * causal`  with the scalar literal `c` (left as its word).
  Every layout operation between the loads and the arithmetic (identity casts, the transpose, the two broadcasts)
  is read at an index; the matrix product's contraction index is re-indexed by its one coordinate.
-/
import proofs.«154794_j90598040141832_2_alg».proof.Proof.Gen.KernelIdeal.Skeleton
import proofs.«154794_j90598040141832_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.CosineBody

open Cert.KernelIdeal Cert.KernelIdeal.Gen Idealize.ShloMosaic Idealize.ShloMosaic.ValueIdx

theorem lhs_row (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

theorem rhs_col (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The tile's matrix product against the transposed second operand, into the zero accumulator, at `(p, q)`: the sum
    over the 256 shared coordinates of `a[p, k] * b[q, k]`. -/
theorem matmulT_apply (a b : FVec Ideal S1024x256 .f32) (p q : Fin 1024) :
    matmul dot_S1024x256_S256x1024_S1024x1024_1_0_0_1_n_n (some .fp32) a
        (transpose S256x1024 [1, 0] b transposes_S1024x256_p1_0_S256x1024) (constant S1024x1024 .f32 0x00000000#32) (ix2 p q)
      = ∑ k : Fin 256, a (ix2 p k) * b (ix2 q k) := by
  simp only [matmul]
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q)
      ((contrEquiv1 dot_S1024x256_S256x1024_S1024x1024_1_0_0_1_n_n 256 rfl rfl).symm k) = ix2 p k :=
    funext fun a => Fin.ext (by
      match a with
      | ⟨0, _⟩ => exact lhs_row _ _
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 p q)
      ((contrEquiv1 dot_S1024x256_S256x1024_S1024x1024_1_0_0_1_n_n 256 rfl rfl).symm k) = ix2 k q :=
    funext fun a => Fin.ext (by
      match a with
      | ⟨0, _⟩ => exact (dot_S1024x256_S256x1024_S1024x1024_1_0_0_1_n_n.rhsIdx_val_of_single rfl _ _).trans hk
      | ⟨1, _⟩ => exact rhs_col _ _)
  rw [el, er, transpose_ix2_apply]

/-- The similarity tile at `(p, q)`. -/
theorem similarity_apply (a b : Vec Ideal S1024x256 .f32) (u : Vec Ideal S1024x1 .f32) (w : Vec Ideal S1x1024 .f32)
    (p q : Fin 1024) :
    k0_pay1 a b u w (ix2 p q)
      = ((∑ k : Fin 256, a (ix2 p k) * b (ix2 q k)) * u (ix2 p (0 : Fin 1))) * w (ix2 (0 : Fin 1) q) := by
  unfold k0_pay1
  simp only [shapeCast_self]
  rw [mulf_apply, mulf_apply, matmulT_apply, Cert.LibColumn.broadcastTo_a1_ab_apply, broadcastTo_1b_ab_apply]

/-- The causal tile at `(p, q)`. -/
theorem causal_apply (g : Vec Ideal S1024x1 .f32) (h : Vec Ideal S1x1024 .f32) (e : Vec Ideal S1024x1024 .f32)
    (p q : Fin 1024) :
    k0_pay2 g h e (ix2 p q) = e (ix2 p q) * (g (ix2 p (0 : Fin 1)) + h (ix2 (0 : Fin 1) q)) := by
  unfold k0_pay2
  simp only [shapeCast_self]
  rw [mulf_apply, addf_apply, Cert.LibColumn.broadcastTo_a1_ab_apply, broadcastTo_1b_ab_apply]

/-- The combined tile at `(p, q)`: the similarity plus the literal times the causal term. -/
theorem final_apply (a b : Vec Ideal S1024x256 .f32) (u : Vec Ideal S1024x1 .f32) (w : Vec Ideal S1x1024 .f32)
    (g : Vec Ideal S1024x1 .f32) (h : Vec Ideal S1x1024 .f32) (e : Vec Ideal S1024x1024 .f32) (p q : Fin 1024) :
    k0_pay3 a b u w g h e (ix2 p q)
      = k0_pay1 a b u w (ix2 p q) + Ideal.ofBits .f32 0x3E99999A#32 * k0_pay2 g h e (ix2 p q) := by
  unfold k0_pay3
  rfl

end Cert.CosineBody

end
-- ==== Proof.CosineLaw.lean ====
/-
  The one algebraic law that joins the two programs' cosine similarities, on the extended reals.

  The kernel scales a dot product `s` by two precomputed reciprocals, `(s · (1/a)) · (1/b)`; the reference divides
  it by the product of the norms, `s / (a · b)`. Division on the extended reals is `x · y⁻¹` off zero and a signed
  infinity (or junk) at zero, so the two agree exactly where neither norm vanishes: for `0 < a` and `0 < b`
  (either may be `+∞`, whose inverse is `0`) the inverse is multiplicative, `(a · b)⁻¹ = a⁻¹ · b⁻¹`, and the
  rest is associativity of the product. No finiteness of `s` is needed.

  The causal strength differs only in the order of three summands, `(p + c) + q` against `(p + q) + c`:
  addition on the extended reals is commutative and associative, infinities included.
-/
import Idealize.ShloMosaic.PureOps.Ideal
import Mathlib.Data.EReal.Inv

noncomputable section

namespace Cert.CosineLaw

open Idealize.ShloMosaic

/-- Scaling by the two reciprocals is dividing by the product, for positive divisors. -/
theorem scaled_eq_div (s a b : EReal) (ha : 0 < a) (hb : 0 < b) :
    s * Ideal.div 1 a * Ideal.div 1 b = Ideal.div s (a * b) := by
  have ha0 : a ≠ 0 := ne_of_gt ha
  have hb0 : b ≠ 0 := ne_of_gt hb
  have hab : a * b ≠ 0 := ne_of_gt (EReal.mul_pos ha hb)
  rw [Ideal.div, if_neg ha0, Ideal.div, if_neg hb0, Ideal.div, if_neg hab, one_mul, one_mul, mul_assoc,
    EReal.mul_inv]

/-- The three summands of the causal strength, in either order. -/
theorem strength_comm (p q c : EReal) : (p + c) + q = (p + q) + c := add_right_comm p c q

end Cert.CosineLaw

end
-- ==== Proof.Spec.lean ====
/-
  The three results as functions of the shared intermediate arrays, in the two arrangements the programs use, and
  the lemmas that the arrangements agree.

  Write F, T for the encoded image and text features (4096 x 256), nF, nT for their columns of row norms, P, Q for
  the two projections onto the scoring weights (columns), B for the scoring bias and E for the edge weights.
    similarity(r, s) = (sum_k F[r, k] * T[s, k]) / (nF[r] * nT[s])            -- as the reference divides
                     = ((sum_k F[r, k] * T[s, k]) * (1 / nF[r])) * (1 / nT[s])  -- as the kernel scales
    causal(r, s)     = E[r, s] * ((P[r] + Q[s]) + B)  =  E[r, s] * ((P[r] + B) + Q[s])
    final(r, s)      = similarity(r, s) + c * causal(r, s)
  The first equality holds where both norms are positive; the second always.
-/
import proofs.«154794_j90598040141832_2_alg».proof.Proof.CosineLaw
import Idealize.ShloMosaic.Lib.ValueIdx

noncomputable section

namespace Cert.CosineSpec

open Idealize.ShloMosaic Idealize.ShloMosaic.ValueIdx

/-- An `a x b` array of extended reals. -/
abbrev Mat (a b : ℕ) := (⟨2, ![a, b]⟩ : Shape).Idx → EReal

/-- The row and the column of an index of the 4096 x 4096 results. -/
abbrev row (i : (⟨2, ![4096, 4096]⟩ : Shape).Idx) : Fin 4096 := ⟨(i 0).val, (i 0).isLt⟩
abbrev col (i : (⟨2, ![4096, 4096]⟩ : Shape).Idx) : Fin 4096 := ⟨(i 1).val, (i 1).isLt⟩

/-- The dot product of row `r` of the image features with row `s` of the text features. -/
def dotRows (F T : Mat 4096 256) (r s : Fin 4096) : EReal := ∑ k : Fin 256, F (ix2 r k) * T (ix2 s k)

/-- The similarity as the kernel forms it: the dot product scaled by a column entry and by a row entry. -/
def simScaled (F T : Mat 4096 256) (U : Mat 4096 1) (W : Mat 1 4096) (r s : Fin 4096) : EReal :=
  (dotRows F T r s * U (ix2 r (0 : Fin 1))) * W (ix2 (0 : Fin 1) s)

/-- The similarity as the reference forms it: the dot product divided by the product of the two norms. -/
def simDivided (F T : Mat 4096 256) (nF nT : Mat 4096 1) (r s : Fin 4096) : EReal :=
  Ideal.div (dotRows F T r s) (nF (ix2 r (0 : Fin 1)) * nT (ix2 s (0 : Fin 1)))

/-- The causal term as the kernel forms it, from a column and a row. -/
def causalColRow (G : Mat 4096 1) (H : Mat 1 4096) (E : Mat 4096 4096) (r s : Fin 4096) : EReal :=
  E (ix2 r s) * (G (ix2 r (0 : Fin 1)) + H (ix2 (0 : Fin 1) s))

/-- The causal term as the reference forms it, from the two projections and the bias. -/
def causalRef (P Q : Mat 4096 1) (B : (⟨1, ![1]⟩ : Shape).Idx → EReal) (E : Mat 4096 4096) (r s : Fin 4096) : EReal :=
  E (ix2 r s) * ((P (ix2 r (0 : Fin 1)) + Q (ix2 s (0 : Fin 1))) + B (ix1 (0 : Fin 1)))

/-- Where the scaling column and row are the reciprocals of positive norms, scaling is dividing. -/
theorem simScaled_eq (F T : Mat 4096 256) (nF nT U : Mat 4096 1) (W : Mat 1 4096)
    (hU : ∀ r : Fin 4096, U (ix2 r (0 : Fin 1)) = Ideal.div 1 (nF (ix2 r (0 : Fin 1))))
    (hW : ∀ s : Fin 4096, W (ix2 (0 : Fin 1) s) = Ideal.div 1 (nT (ix2 s (0 : Fin 1))))
    (hF : ∀ r : Fin 4096, 0 < nF (ix2 r (0 : Fin 1))) (hT : ∀ s : Fin 4096, 0 < nT (ix2 s (0 : Fin 1)))
    (r s : Fin 4096) : simScaled F T U W r s = simDivided F T nF nT r s := by
  unfold simScaled simDivided
  rw [hU, hW, Cert.CosineLaw.scaled_eq_div _ _ _ (hF r) (hT s)]

/-- The two orders of the strength's three summands give one causal term. -/
theorem causalColRow_eq (P Q G : Mat 4096 1) (H : Mat 1 4096) (B : (⟨1, ![1]⟩ : Shape).Idx → EReal) (E : Mat 4096 4096)
    (hG : ∀ r : Fin 4096, G (ix2 r (0 : Fin 1)) = P (ix2 r (0 : Fin 1)) + B (ix1 (0 : Fin 1)))
    (hH : ∀ s : Fin 4096, H (ix2 (0 : Fin 1) s) = Q (ix2 s (0 : Fin 1)))
    (r s : Fin 4096) : causalColRow G H E r s = causalRef P Q B E r s := by
  unfold causalColRow causalRef
  rw [hG, hH, Cert.CosineLaw.strength_comm]

end Cert.CosineSpec

end
-- ==== Proof.KernelArrays.lean ====
/-
  The kernel's three result arrays after the tiled region, each as one function of the region's operand arrays.

  The grid has 4 x 4 points; point (I, J) owns the 1024 x 1024 tile of each result whose rows start at 1024 I and
  whose columns start at 1024 J. At that point the body sees rows 1024 I .. of the image features, of the
  reciprocal image norms and of the image score; the text features and the two row vectors are resident whole and
  the body reads their rows (lanes) 1024 J .. itself; the edge weights come tile by tile. So entry (p, q) of the
  tile is the array function at (1024 I + p, 1024 J + q), every tile is the restriction of one array function,
  and the sixteen tiles cover the array (row r lies in tile row r / 1024).
-/
import proofs.«154794_j90598040141832_2_alg».proof.Proof.Gen.KernelIdeal.Value
import proofs.«154794_j90598040141832_2_alg».proof.Proof.TileValue
import proofs.«154794_j90598040141832_2_alg».proof.Proof.BodyValue
import proofs.«154794_j90598040141832_2_alg».proof.Proof.Spec
import Idealize.ShloMosaic.Lib.Pipeline.Value
import Idealize.ShloMosaic.Lib.Tactic

set_option maxRecDepth 16384

noncomputable section

namespace Cert.CosineKernel

open Cert.KernelIdeal Cert.KernelIdeal.Gen Idealize.ShloMosaic Idealize.ShloMosaic.TcCoe Idealize.SL.Sem
open Idealize.ShloMosaic.ValueIdx Cert.CosineSpec
open Idealize.ShloMosaic.Pipeline (Dat)

variable (m : (ℓ : Loc nD τ sig) → Buf (Elt Ideal) ℓ) (ρ : Dev nD → PrngReg)

/-! ## The array functions -/

/-- The similarity array of the region's operands. -/
def simArr (A0 A1 : S4096x256.Idx → EReal) (A2 : S4096x1.Idx → EReal) (A3 : S1x4096.Idx → EReal) : S4096x4096.Idx → EReal :=
  fun i => simScaled A0 A1 A2 A3 (row i) (col i)

/-- The causal array of the region's operands. -/
def causalArr (A4 : S4096x1.Idx → EReal) (A5 : S1x4096.Idx → EReal) (A6 : S4096x4096.Idx → EReal) : S4096x4096.Idx → EReal :=
  fun i => causalColRow A4 A5 A6 (row i) (col i)

/-- The combined array. -/
def finalArr (A0 A1 : S4096x256.Idx → EReal) (A2 : S4096x1.Idx → EReal) (A3 : S1x4096.Idx → EReal)
    (A4 : S4096x1.Idx → EReal) (A5 : S1x4096.Idx → EReal) (A6 : S4096x4096.Idx → EReal) : S4096x4096.Idx → EReal :=
  fun i => simArr A0 A1 A2 A3 i + Ideal.ofBits .f32 0x3E99999A#32 * causalArr A4 A5 A6 i

/-! ## The index maps over the grid -/

/-- Every window's block index at a point, from the point's two coordinates (decided over the 16 points). -/
theorem point_facts : ∀ t : Fin cfg0.N,
    (grid0.coords t 0).val ≤ 3 ∧ (grid0.coords t 1).val ≤ 3
    ∧ win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = 0
    ∧ win0_4.index t (0 : Fin 2) = (grid0.coords t 0).val ∧ win0_4.index t (1 : Fin 2) = 0
    ∧ win0_5.index t (0 : Fin 2) = 0 ∧ win0_5.index t (1 : Fin 2) = 0
    ∧ win0_6.index t (0 : Fin 2) = (grid0.coords t 0).val ∧ win0_6.index t (1 : Fin 2) = (grid0.coords t 1).val
    ∧ win0_7.index t (0 : Fin 2) = (grid0.coords t 0).val ∧ win0_7.index t (1 : Fin 2) = (grid0.coords t 1).val
    ∧ win0_8.index t (0 : Fin 2) = (grid0.coords t 0).val ∧ win0_8.index t (1 : Fin 2) = (grid0.coords t 1).val
    ∧ win0_9.index t (0 : Fin 2) = (grid0.coords t 0).val ∧ win0_9.index t (1 : Fin 2) = (grid0.coords t 1).val :=
  (by decide +kernel : ∀ t : Fin grid0.N, _)

/-- Every pair of coordinates is some point's. -/
theorem point_onto : ∀ (I J : Fin 4), ∃ t : Fin cfg0.N, (grid0.coords t 0).val = I.val ∧ (grid0.coords t 1).val = J.val :=
  (by decide +kernel : ∀ (I J : Fin 4), ∃ t : Fin grid0.N, (grid0.coords t 0).val = I.val ∧ (grid0.coords t 1).val = J.val)

/-- The array row of tile row `p` at point `t`, and the array column of tile column `q`. -/
def arrRow (t : Fin cfg0.N) (p : Fin 1024) : Fin 4096 :=
  ⟨(grid0.coords t 0).val * 1024 + 1 * p.val, by have := (point_facts t).1; omega⟩
def arrCol (t : Fin cfg0.N) (q : Fin 1024) : Fin 4096 :=
  ⟨(grid0.coords t 1).val * 1024 + 1 * q.val, by have := (point_facts t).2.1; omega⟩

/-! ## The blocks the body reads, at an index -/

theorem imgFeat_at (c : Dev nD) (t : Fin cfg0.N) (p : Fin 1024) (k : Fin 256) :
    iblk m c 0 t (ix2 p k) = V m c main_v3 (ix2 (arrRow t p) k) := by
  show V m c main_v3 (((cfg0.win 0).blk t).view.emb (ix2 p k)) = _
  refine congrArg _ (funext fun a => Fin.ext ?_)
  obtain ⟨hI, hJ, f00, f01, f10, f11, f20, f21, f30, f31, f40, f41, f50, f51, f60, f61, f70, f71, f80, f81, f90, f91⟩ := point_facts t
  match a with
  | ⟨0, _⟩ => show win0_0.index t (0 : Fin 2) * 1024 + 1 * p.val = (grid0.coords t 0).val * 1024 + 1 * p.val; rw [f00]
  | ⟨1, _⟩ => show win0_0.index t (1 : Fin 2) * 256 + 1 * k.val = k.val; rw [f01]; omega

theorem txtFeat_at (c : Dev nD) (t : Fin cfg0.N) (h : ∀ a, k0_off1 (grid0.coords t) a + S1024x256.size a ≤ S4096x256.size a)
    (q : Fin 1024) (k : Fin 256) :
    View.ld (S := S4096x256) (iblk m c 1 t) (Rect.unit (s := S4096x256) (k0_off1 (grid0.coords t)) S1024x256.size h) (ix2 q k)
      = V m c main_v7 (ix2 (arrCol t q) k) := by
  show V m c main_v7 (((cfg0.win 1).blk t).view.emb
    ((Rect.unit (s := S4096x256) (k0_off1 (grid0.coords t)) S1024x256.size h).idx (ix2 q k))) = _
  refine congrArg _ (funext fun a => Fin.ext ?_)
  obtain ⟨hI, hJ, f00, f01, f10, f11, f20, f21, f30, f31, f40, f41, f50, f51, f60, f61, f70, f71, f80, f81, f90, f91⟩ := point_facts t
  have o0 : k0_off1 (grid0.coords t) 0 = 1024 * (grid0.coords t 1).val := congrFun (k0_off1_eq (grid0.coords t)) 0
  have o1 : k0_off1 (grid0.coords t) 1 = 0 := congrFun (k0_off1_eq (grid0.coords t)) 1
  match a with
  | ⟨0, _⟩ =>
    show win0_1.index t (0 : Fin 2) * 4096 + 1 * (k0_off1 (grid0.coords t) 0 + 1 * q.val) = (grid0.coords t 1).val * 1024 + 1 * q.val
    rw [f10, o0]; omega
  | ⟨1, _⟩ =>
    show win0_1.index t (1 : Fin 2) * 256 + 1 * (k0_off1 (grid0.coords t) 1 + 1 * k.val) = k.val
    rw [f11, o1]; omega

theorem invImgNorm_at (c : Dev nD) (t : Fin cfg0.N) (p : Fin 1024) :
    iblk m c 2 t (ix2 p (0 : Fin 1)) = V m c main_v10 (ix2 (arrRow t p) (0 : Fin 1)) := by
  show V m c main_v10 (((cfg0.win 2).blk t).view.emb (ix2 p (0 : Fin 1))) = _
  refine congrArg _ (funext fun a => Fin.ext ?_)
  obtain ⟨hI, hJ, f00, f01, f10, f11, f20, f21, f30, f31, f40, f41, f50, f51, f60, f61, f70, f71, f80, f81, f90, f91⟩ := point_facts t
  match a with
  | ⟨0, _⟩ => show win0_2.index t (0 : Fin 2) * 1024 + 1 * p.val = (grid0.coords t 0).val * 1024 + 1 * p.val; rw [f20]
  | ⟨1, _⟩ => show win0_2.index t (1 : Fin 2) * 1 + 1 * 0 = 0; rw [f21]

theorem invTxtNorm_at (c : Dev nD) (t : Fin cfg0.N) (h : ∀ a, k0_off2 (grid0.coords t) a + S1x1024.size a ≤ S1x4096.size a)
    (q : Fin 1024) :
    View.ld (S := S1x4096) (iblk m c 3 t) (Rect.unit (s := S1x4096) (k0_off2 (grid0.coords t)) S1x1024.size h) (ix2 (0 : Fin 1) q)
      = V m c main_v14 (ix2 (0 : Fin 1) (arrCol t q)) := by
  show V m c main_v14 (((cfg0.win 3).blk t).view.emb
    ((Rect.unit (s := S1x4096) (k0_off2 (grid0.coords t)) S1x1024.size h).idx (ix2 (0 : Fin 1) q))) = _
  refine congrArg _ (funext fun a => Fin.ext ?_)
  obtain ⟨hI, hJ, f00, f01, f10, f11, f20, f21, f30, f31, f40, f41, f50, f51, f60, f61, f70, f71, f80, f81, f90, f91⟩ := point_facts t
  have o0 : k0_off2 (grid0.coords t) 0 = 0 := congrFun (k0_off2_eq (grid0.coords t)) 0
  have o1 : k0_off2 (grid0.coords t) 1 = 1024 * (grid0.coords t 1).val := congrFun (k0_off2_eq (grid0.coords t)) 1
  match a with
  | ⟨0, _⟩ =>
    show win0_3.index t (0 : Fin 2) * 1 + 1 * (k0_off2 (grid0.coords t) 0 + 1 * 0) = 0
    rw [f30, o0]
  | ⟨1, _⟩ =>
    show win0_3.index t (1 : Fin 2) * 4096 + 1 * (k0_off2 (grid0.coords t) 1 + 1 * q.val) = (grid0.coords t 1).val * 1024 + 1 * q.val
    rw [f31, o1]; omega

theorem imgScore_at (c : Dev nD) (t : Fin cfg0.N) (p : Fin 1024) :
    iblk m c 4 t (ix2 p (0 : Fin 1)) = V m c main_v20 (ix2 (arrRow t p) (0 : Fin 1)) := by
  show V m c main_v20 (((cfg0.win 4).blk t).view.emb (ix2 p (0 : Fin 1))) = _
  refine congrArg _ (funext fun a => Fin.ext ?_)
  obtain ⟨hI, hJ, f00, f01, f10, f11, f20, f21, f30, f31, f40, f41, f50, f51, f60, f61, f70, f71, f80, f81, f90, f91⟩ := point_facts t
  match a with
  | ⟨0, _⟩ => show win0_4.index t (0 : Fin 2) * 1024 + 1 * p.val = (grid0.coords t 0).val * 1024 + 1 * p.val; rw [f40]
  | ⟨1, _⟩ => show win0_4.index t (1 : Fin 2) * 1 + 1 * 0 = 0; rw [f41]

theorem txtScore_at (c : Dev nD) (t : Fin cfg0.N) (h : ∀ a, k0_off2 (grid0.coords t) a + S1x1024.size a ≤ S1x4096.size a)
    (q : Fin 1024) :
    View.ld (S := S1x4096) (iblk m c 5 t) (Rect.unit (s := S1x4096) (k0_off2 (grid0.coords t)) S1x1024.size h) (ix2 (0 : Fin 1) q)
      = V m c main_v22 (ix2 (0 : Fin 1) (arrCol t q)) := by
  show V m c main_v22 (((cfg0.win 5).blk t).view.emb
    ((Rect.unit (s := S1x4096) (k0_off2 (grid0.coords t)) S1x1024.size h).idx (ix2 (0 : Fin 1) q))) = _
  refine congrArg _ (funext fun a => Fin.ext ?_)
  obtain ⟨hI, hJ, f00, f01, f10, f11, f20, f21, f30, f31, f40, f41, f50, f51, f60, f61, f70, f71, f80, f81, f90, f91⟩ := point_facts t
  have o0 : k0_off2 (grid0.coords t) 0 = 0 := congrFun (k0_off2_eq (grid0.coords t)) 0
  have o1 : k0_off2 (grid0.coords t) 1 = 1024 * (grid0.coords t 1).val := congrFun (k0_off2_eq (grid0.coords t)) 1
  match a with
  | ⟨0, _⟩ =>
    show win0_5.index t (0 : Fin 2) * 1 + 1 * (k0_off2 (grid0.coords t) 0 + 1 * 0) = 0
    rw [f50, o0]
  | ⟨1, _⟩ =>
    show win0_5.index t (1 : Fin 2) * 4096 + 1 * (k0_off2 (grid0.coords t) 1 + 1 * q.val) = (grid0.coords t 1).val * 1024 + 1 * q.val
    rw [f51, o1]; omega

theorem edge_emb (t : Fin cfg0.N) (p q : Fin 1024) :
    ((cfg0.win 6).blk t).view.emb (ix2 p q) = ix2 (arrRow t p) (arrCol t q) :=
  funext fun a => Fin.ext (by
    obtain ⟨hI, hJ, f00, f01, f10, f11, f20, f21, f30, f31, f40, f41, f50, f51, f60, f61, f70, f71, f80, f81, f90, f91⟩ := point_facts t
    match a with
    | ⟨0, _⟩ => show win0_6.index t (0 : Fin 2) * 1024 + 1 * p.val = (grid0.coords t 0).val * 1024 + 1 * p.val; rw [f60]
    | ⟨1, _⟩ => show win0_6.index t (1 : Fin 2) * 1024 + 1 * q.val = (grid0.coords t 1).val * 1024 + 1 * q.val; rw [f61])

theorem edge_at (c : Dev nD) (t : Fin cfg0.N) (p q : Fin 1024) :
    iblk m c 6 t (ix2 p q) = V m c main_arg8 (ix2 (arrRow t p) (arrCol t q)) := by
  show V m c main_arg8 (((cfg0.win 6).blk t).view.emb (ix2 p q)) = _
  exact congrArg _ (edge_emb t p q)

/-- The three output windows' tiles sit at the same place. -/
theorem out_emb7 (t : Fin cfg0.N) (p q : Fin 1024) :
    ((cfg0.win 7).blk t).view.emb (ix2 p q) = ix2 (arrRow t p) (arrCol t q) :=
  funext fun a => Fin.ext (by
    obtain ⟨hI, hJ, f00, f01, f10, f11, f20, f21, f30, f31, f40, f41, f50, f51, f60, f61, f70, f71, f80, f81, f90, f91⟩ := point_facts t
    match a with
    | ⟨0, _⟩ => show win0_7.index t (0 : Fin 2) * 1024 + 1 * p.val = (grid0.coords t 0).val * 1024 + 1 * p.val; rw [f70]
    | ⟨1, _⟩ => show win0_7.index t (1 : Fin 2) * 1024 + 1 * q.val = (grid0.coords t 1).val * 1024 + 1 * q.val; rw [f71])
theorem out_emb8 (t : Fin cfg0.N) (p q : Fin 1024) :
    ((cfg0.win 8).blk t).view.emb (ix2 p q) = ix2 (arrRow t p) (arrCol t q) :=
  funext fun a => Fin.ext (by
    obtain ⟨hI, hJ, f00, f01, f10, f11, f20, f21, f30, f31, f40, f41, f50, f51, f60, f61, f70, f71, f80, f81, f90, f91⟩ := point_facts t
    match a with
    | ⟨0, _⟩ => show win0_8.index t (0 : Fin 2) * 1024 + 1 * p.val = (grid0.coords t 0).val * 1024 + 1 * p.val; rw [f80]
    | ⟨1, _⟩ => show win0_8.index t (1 : Fin 2) * 1024 + 1 * q.val = (grid0.coords t 1).val * 1024 + 1 * q.val; rw [f81])
theorem out_emb9 (t : Fin cfg0.N) (p q : Fin 1024) :
    ((cfg0.win 9).blk t).view.emb (ix2 p q) = ix2 (arrRow t p) (arrCol t q) :=
  funext fun a => Fin.ext (by
    obtain ⟨hI, hJ, f00, f01, f10, f11, f20, f21, f30, f31, f40, f41, f50, f51, f60, f61, f70, f71, f80, f81, f90, f91⟩ := point_facts t
    match a with
    | ⟨0, _⟩ => show win0_9.index t (0 : Fin 2) * 1024 + 1 * p.val = (grid0.coords t 0).val * 1024 + 1 * p.val; rw [f90]
    | ⟨1, _⟩ => show win0_9.index t (1 : Fin 2) * 1024 + 1 * q.val = (grid0.coords t 1).val * 1024 + 1 * q.val; rw [f91])

/-! ## What each point writes back is its tile of the array function -/

theorem sim_tile_at (c : Dev nD) (t : Fin cfg0.N)
    (h1 : ∀ a, k0_off1 (grid0.coords t) a + S1024x256.size a ≤ S4096x256.size a)
    (h2 : ∀ a, k0_off2 (grid0.coords t) a + S1x1024.size a ≤ S1x4096.size a) (p q : Fin 1024) :
    k0_pay1 (iblk m c 0 t) (View.ld (S := S4096x256) (iblk m c 1 t) (Rect.unit (s := S4096x256) (k0_off1 (grid0.coords t)) S1024x256.size h1))
        (iblk m c 2 t) (View.ld (S := S1x4096) (iblk m c 3 t) (Rect.unit (s := S1x4096) (k0_off2 (grid0.coords t)) S1x1024.size h2)) (ix2 p q)
      = simScaled (V m c main_v3) (V m c main_v7) (V m c main_v10) (V m c main_v14) (arrRow t p) (arrCol t q) :=
  (Cert.CosineBody.similarity_apply _ _ _ _ p q).trans
    (congrArg₂ (· * ·) (congrArg₂ (· * ·)
      (Finset.sum_congr rfl fun k _ => congrArg₂ (· * ·) (imgFeat_at m c t p k) (txtFeat_at m c t h1 q k))
      (invImgNorm_at m c t p)) (invTxtNorm_at m c t h2 q))

theorem causal_tile_at (c : Dev nD) (t : Fin cfg0.N)
    (h2 : ∀ a, k0_off2 (grid0.coords t) a + S1x1024.size a ≤ S1x4096.size a) (p q : Fin 1024) :
    k0_pay2 (iblk m c 4 t) (View.ld (S := S1x4096) (iblk m c 5 t) (Rect.unit (s := S1x4096) (k0_off2 (grid0.coords t)) S1x1024.size h2))
        (iblk m c 6 t) (ix2 p q)
      = causalColRow (V m c main_v20) (V m c main_v22) (V m c main_arg8) (arrRow t p) (arrCol t q) :=
  (Cert.CosineBody.causal_apply _ _ _ p q).trans
    (congrArg₂ (· * ·) (edge_at m c t p q) (congrArg₂ (· + ·) (imgScore_at m c t p) (txtScore_at m c t h2 q)))

/-- Point `t` writes back its tile of the similarity array. -/
theorem flushed_sim (c : Dev nD) (t : Fin cfg0.N) :
    (dats m 0 c).flushed 8 t = ((cfg0.win 8).blk t).view.read (Elt Ideal)
      (simArr (V m c main_v3) (V m c main_v7) (V m c main_v10) (V m c main_v14)) := by
  rw [Cert.KernelIdeal.Value.flushed8_A, Cert.CosineTile.similarity_tile]
  refine funext fun (y : S1024x1024.Idx) => ?_
  obtain ⟨p, q, rfl⟩ : ∃ (p q : Fin 1024), y = ix2 p q := ⟨y 0, y 1, eq_ix2 y⟩
  refine (sim_tile_at m c t _ _ p q).trans ?_
  show _ = simScaled _ _ _ _ (row (((cfg0.win 8).blk t).view.emb (ix2 p q))) (col (((cfg0.win 8).blk t).view.emb (ix2 p q)))
  rw [out_emb8]

/-- Point `t` writes back its tile of the causal array. -/
theorem flushed_causal (c : Dev nD) (t : Fin cfg0.N) :
    (dats m 0 c).flushed 9 t = ((cfg0.win 9).blk t).view.read (Elt Ideal)
      (causalArr (V m c main_v20) (V m c main_v22) (V m c main_arg8)) := by
  rw [Cert.KernelIdeal.Value.flushed9_A, Cert.CosineTile.causal_tile]
  refine funext fun (y : S1024x1024.Idx) => ?_
  obtain ⟨p, q, rfl⟩ : ∃ (p q : Fin 1024), y = ix2 p q := ⟨y 0, y 1, eq_ix2 y⟩
  refine (causal_tile_at m c t _ p q).trans ?_
  show _ = causalColRow _ _ _ (row (((cfg0.win 9).blk t).view.emb (ix2 p q))) (col (((cfg0.win 9).blk t).view.emb (ix2 p q)))
  rw [out_emb9]

/-- Point `t` writes back its tile of the combined array. -/
theorem flushed_final (c : Dev nD) (t : Fin cfg0.N) :
    (dats m 0 c).flushed 7 t = ((cfg0.win 7).blk t).view.read (Elt Ideal)
      (finalArr (V m c main_v3) (V m c main_v7) (V m c main_v10) (V m c main_v14) (V m c main_v20) (V m c main_v22) (V m c main_arg8)) := by
  rw [Cert.KernelIdeal.Value.flushed7_A, Cert.CosineTile.final_tile]
  refine funext fun (y : S1024x1024.Idx) => ?_
  obtain ⟨p, q, rfl⟩ : ∃ (p q : Fin 1024), y = ix2 p q := ⟨y 0, y 1, eq_ix2 y⟩
  refine (Cert.CosineBody.final_apply _ _ _ _ _ _ _ p q).trans ?_
  refine (congrArg₂ (· + ·) (sim_tile_at m c t _ _ p q) (congrArg (Ideal.ofBits .f32 0x3E99999A#32 * ·) (causal_tile_at m c t _ p q))).trans ?_
  show _ = simScaled _ _ _ _ (row (((cfg0.win 7).blk t).view.emb (ix2 p q))) (col (((cfg0.win 7).blk t).view.emb (ix2 p q)))
    + Ideal.ofBits .f32 0x3E99999A#32 * causalColRow _ _ _ (row (((cfg0.win 7).blk t).view.emb (ix2 p q))) (col (((cfg0.win 7).blk t).view.emb (ix2 p q)))
  rw [out_emb7]

/-! ## The tiles cover the arrays -/

theorem mem_blk7 (t : Fin cfg0.N) (i : S4096x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v23_0).slice (win0_7.rect t)).set ↔ _
  rw [View.set_slice_whole, Rect.mem_set_unit]
  exact Iff.rfl

theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, ht0, ht1⟩ := point_onto ⟨(i 0).val / 1024, by omega⟩ ⟨(i 1).val / 1024, by omega⟩
  obtain ⟨hI, hJ, f00, f01, f10, f11, f20, f21, f30, f31, f40, f41, f50, f51, f60, f61, f70, f71, f80, f81, f90, f91⟩ := point_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [f70, ht0]; dsimp only; omega
  | ⟨1, _⟩ => show win0_7.index t (1 : Fin 2) * 1024 ≤ (i 1).val ∧ (i 1).val < win0_7.index t (1 : Fin 2) * 1024 + 1024; rw [f71, ht1]; dsimp only; omega

theorem mem_blk8 (t : Fin cfg0.N) (i : S4096x4096.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v23_1).slice (win0_8.rect t)).set ↔ _
  rw [View.set_slice_whole, Rect.mem_set_unit]
  exact Iff.rfl

theorem cover8 (i : S4096x4096.Idx) : ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨t, ht0, ht1⟩ := point_onto ⟨(i 0).val / 1024, by omega⟩ ⟨(i 1).val / 1024, by omega⟩
  obtain ⟨hI, hJ, f00, f01, f10, f11, f20, f21, f30, f31, f40, f41, f50, f51, f60, f61, f70, f71, f80, f81, f90, f91⟩ := point_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [f80, ht0]; dsimp only; omega
  | ⟨1, _⟩ => show win0_8.index t (1 : Fin 2) * 1024 ≤ (i 1).val ∧ (i 1).val < win0_8.index t (1 : Fin 2) * 1024 + 1024; rw [f81, ht1]; dsimp only; omega

theorem mem_blk9 (t : Fin cfg0.N) (i : S4096x4096.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v23_2).slice (win0_9.rect t)).set ↔ _
  rw [View.set_slice_whole, Rect.mem_set_unit]
  exact Iff.rfl

theorem cover9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨t, ht0, ht1⟩ := point_onto ⟨(i 0).val / 1024, by omega⟩ ⟨(i 1).val / 1024, by omega⟩
  obtain ⟨hI, hJ, f00, f01, f10, f11, f20, f21, f30, f31, f40, f41, f50, f51, f60, f61, f70, f71, f80, f81, f90, f91⟩ := point_facts t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; rw [f90, ht0]; dsimp only; omega
  | ⟨1, _⟩ => show win0_9.index t (1 : Fin 2) * 1024 ≤ (i 1).val ∧ (i 1).val < win0_9.index t (1 : Fin 2) * 1024 + 1024; rw [f91, ht1]; dsimp only; omega

/-! ## The arrays after the run -/

theorem final_arr (c : Dev nD) : (dats m 0 c).arrAt 7 cfg0.N
    = finalArr (V m c main_v3) (V m c main_v7) (V m c main_v10) (V m c main_v14) (V m c main_v20) (V m c main_v22) (V m c main_arg8) :=
  (dats m 0 c).arrAt_eq_of_cover 7 _ (fun t _ => flushed_final m c t) cover7

theorem sim_arr (c : Dev nD) : (dats m 0 c).arrAt 8 cfg0.N
    = simArr (V m c main_v3) (V m c main_v7) (V m c main_v10) (V m c main_v14) :=
  (dats m 0 c).arrAt_eq_of_cover 8 _ (fun t _ => flushed_sim m c t) cover8

theorem causal_arr (c : Dev nD) : (dats m 0 c).arrAt 9 cfg0.N
    = causalArr (V m c main_v20) (V m c main_v22) (V m c main_arg8) :=
  (dats m 0 c).arrAt_eq_of_cover 9 _ (fun t _ => flushed_causal m c t) cover9

end Cert.CosineKernel

end
-- ==== Proof.HostArrays.lean ====
/-
  The arrays the kernel's host code hands to the tiled region, as terms of the argument arrays.

  Before the region the host computes, with the same operations as the reference program, the encoded image and
  text features `x @ W + b`, their columns of row norms, and the two projections onto the halves of the scoring
  weights; the region's operands are these features, the reciprocals `1 / norm` (the text side re-laid as a row),
  the image projection plus the scoring bias, and the text projection re-laid as a row. The shared pieces are
  named by the reference's own stage functions, so that both programs speak of one term.
-/
import proofs.«154794_j90598040141832_2_alg».proof.Proof.Gen.KernelIdeal.Frame
import proofs.«154794_j90598040141832_2_alg».proof.Proof.Gen.ReferenceIdeal.Read
import Idealize.ShloMosaic.Lib.Pipeline.Value
import Idealize.ShloMosaic.Lib.StableHlo.Run
import Idealize.ShloMosaic.Lib.Tactic

set_option maxHeartbeats 1600000

noncomputable section

namespace Cert.CosineHost

open Cert.KernelIdeal Cert.KernelIdeal.Gen Idealize.ShloMosaic Idealize.ShloMosaic.TcCoe Idealize.SL.Sem
open Idealize.ShloMosaic.StableHlo
open Cert.ReferenceIdeal.Read (val_main_v3 val_main_v7 val_main_v10 val_main_v11 val_main_v17 val_main_v18)

variable (m : (ℓ : Loc nD τ sig) → Buf (Elt Ideal) ℓ)

/-- The image features. -/
theorem imgFeatures (c : Dev nD) : (V m c main_v3 : S4096x256.Idx → EReal)
    = val_main_v3 (F := Ideal) (m ((c : Thread nD τ).loc main_arg0)) (m ((c : Thread nD τ).loc main_arg2)) (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results
  rfl

/-- The text features. -/
theorem txtFeatures (c : Dev nD) : (V m c main_v7 : S4096x256.Idx → EReal)
    = val_main_v7 (F := Ideal) (m ((c : Thread nD τ).loc main_arg1)) (m ((c : Thread nD τ).loc main_arg4)) (m ((c : Thread nD τ).loc main_arg5)) := by
  dsimp only [V]
  simp only [hostOps0, hostOps0_1, hostOps0_2, hostOps0_3, hostOps0_4, List.flatten_cons, List.flatten_nil, List.append_nil,
    List.cons_append, List.nil_append]
  after_results
  rfl

/-- The reciprocal image norms, a column. -/
theorem invImgNorms (c : Dev nD) : (V m c main_v10 : S4096x1.Idx → EReal)
    = Host.divf (broadcastInDim S4096x1 ![] bcast_S_S4096x1 (constant (F := Ideal) S_ .f32 0x3F800000#32))
        (val_main_v10 (F := Ideal) (m ((c : Thread nD τ).loc main_arg0)) (m ((c : Thread nD τ).loc main_arg2)) (m ((c : Thread nD τ).loc main_arg3))) := by
  dsimp only [V]
  simp only [hostOps0, hostOps0_1, hostOps0_2, hostOps0_3, hostOps0_4, List.flatten_cons, List.flatten_nil, List.append_nil,
    List.cons_append, List.nil_append]
  after_results
  rfl

/-- The reciprocal text norms, re-laid as a row. -/
theorem invTxtNorms (c : Dev nD) : (V m c main_v14 : S1x4096.Idx → EReal)
    = shapeCast S1x4096 (Host.divf (broadcastInDim S4096x1 ![] bcast_S_S4096x1 (constant (F := Ideal) S_ .f32 0x3F800000#32))
        (val_main_v11 (F := Ideal) (m ((c : Thread nD τ).loc main_arg1)) (m ((c : Thread nD τ).loc main_arg4)) (m ((c : Thread nD τ).loc main_arg5)))) shapeCasts_S4096x1_S1x4096 := by
  dsimp only [V]
  simp only [hostOps0, hostOps0_1, hostOps0_2, hostOps0_3, hostOps0_4, List.flatten_cons, List.flatten_nil, List.append_nil,
    List.cons_append, List.nil_append]
  after_results
  rfl

/-- The image projection plus the scoring bias, a column. -/
theorem imgScore (c : Dev nD) : (V m c main_v20 : S4096x1.Idx → EReal)
    = addf (F := Ideal) (s := S4096x1) (φ := .f32) (val_main_v17 (F := Ideal) (m ((c : Thread nD τ).loc main_arg0)) (m ((c : Thread nD τ).loc main_arg2)) (m ((c : Thread nD τ).loc main_arg3)) (m ((c : Thread nD τ).loc main_arg6)))
        (broadcastInDim S4096x1 ![0, 1] bcast_S1x1_S4096x1_0_1 (shapeCast S1x1 (m ((c : Thread nD τ).loc main_arg7)) shapeCasts_S1_S1x1)) := by
  dsimp only [V]
  simp only [hostOps0, hostOps0_1, hostOps0_2, hostOps0_3, hostOps0_4, List.flatten_cons, List.flatten_nil, List.append_nil,
    List.cons_append, List.nil_append]
  after_results
  rfl

/-- The text projection, re-laid as a row. -/
theorem txtScore (c : Dev nD) : (V m c main_v22 : S1x4096.Idx → EReal)
    = shapeCast S1x4096 (val_main_v18 (F := Ideal) (m ((c : Thread nD τ).loc main_arg1)) (m ((c : Thread nD τ).loc main_arg4)) (m ((c : Thread nD τ).loc main_arg5)) (m ((c : Thread nD τ).loc main_arg6))) shapeCasts_S4096x1_S1x4096 := by
  dsimp only [V]
  simp only [hostOps0, hostOps0_1, hostOps0_2, hostOps0_3, hostOps0_4, List.flatten_cons, List.flatten_nil, List.append_nil,
    List.cons_append, List.nil_append]
  after_results
  rfl

end Cert.CosineHost

end
-- ==== Proof.RefValue.lean ====
/-
  The reference program's three results, read at an index of the 4096 x 4096 arrays, over the shared intermediates
  (the encoded features, their row norms, the two projections), which stay closed.

  The similarity is the features' product against the transposed text features, divided entry by entry by the outer
  product of the two norm columns: that outer product is a matrix product over a contracted axis of extent one,
  so its sum has the single term `nF[r] * nT[s]`. The causal term broadcasts the image projection along the rows,
  the transposed text projection down the columns and the bias everywhere, adds them in that order and multiplies
  by the edge weight. The last result adds the similarity and the literal times the causal term.
-/
import proofs.«154794_j90598040141832_2_alg».proof.Proof.Gen.ReferenceIdeal.Read
import proofs.«154794_j90598040141832_2_alg».proof.Proof.Spec

noncomputable section

namespace Cert.CosineRef

open Cert.ReferenceIdeal Cert.ReferenceIdeal.Read Idealize.ShloMosaic Idealize.ShloMosaic.ValueIdx Cert.CosineSpec

/-- The similarity result at an index. -/
theorem similarity_apply (x0 x1 : FVec Ideal S4096x768 .f32) (x2 : FVec Ideal S768x256 .f32) (x3 : FVec Ideal S256 .f32) (x4 : FVec Ideal S768x256 .f32) (x5 : FVec Ideal S256 .f32) (i : S4096x4096.Idx) :
    val_main_v14 (F := Ideal) x0 x1 x2 x3 x4 x5 i
      = simDivided (val_main_v3 (F := Ideal) x0 x2 x3) (val_main_v7 (F := Ideal) x1 x4 x5)
          (val_main_v10 (F := Ideal) x0 x2 x3) (val_main_v11 (F := Ideal) x1 x4 x5) (row i) (col i) := by
  have e1 : ∀ k : Fin 256, lidx_main_v9 i k = ix2 (row i) k := fun k => funext fun a => Fin.ext (by
    match a with | ⟨0, _⟩ => rfl | ⟨1, _⟩ => rfl)
  have e2 : ∀ k : Fin 256, idx_main_v8 (ridx_main_v9 i k) = ix2 (col i) k := fun k => funext fun a => Fin.ext (by
    match a with | ⟨0, _⟩ => rfl | ⟨1, _⟩ => rfl)
  have e3 : lidx_main_v13 i (0 : Fin 1) = ix2 (row i) (0 : Fin 1) := funext fun a => Fin.ext (by
    match a with | ⟨0, _⟩ => rfl | ⟨1, _⟩ => rfl)
  have e4 : idx_main_v12 (ridx_main_v13 i (0 : Fin 1)) = ix2 (col i) (0 : Fin 1) := funext fun a => Fin.ext (by
    match a with | ⟨0, _⟩ => rfl | ⟨1, _⟩ => rfl)
  rw [val_main_v14_apply, val_main_v9_apply, val_main_v13_apply, Fin.sum_univ_one, val_main_v12_apply, e3, e4]
  simp only [val_main_v8_apply, e1, e2]
  rfl

/-- The causal result at an index. -/
theorem causal_apply (x0 x1 : FVec Ideal S4096x768 .f32) (x2 : FVec Ideal S768x256 .f32) (x3 : FVec Ideal S256 .f32) (x4 : FVec Ideal S768x256 .f32) (x5 : FVec Ideal S256 .f32) (x6 : FVec Ideal S512x1 .f32) (x7 : FVec Ideal S1 .f32) (x8 : FVec Ideal S4096x4096 .f32) (i : S4096x4096.Idx) :
    val_main_v26 (F := Ideal) x0 x1 x2 x3 x4 x5 x6 x7 x8 i
      = causalRef (val_main_v17 (F := Ideal) x0 x2 x3 x6) (val_main_v18 (F := Ideal) x1 x4 x5 x6) x7 x8 (row i) (col i) := by
  have e1 : idx_main_v20 i = ix2 (row i) (0 : Fin 1) := funext fun a => Fin.ext (by
    match a with | ⟨0, _⟩ => rfl | ⟨1, _⟩ => rfl)
  have e2 : idx_main_v19 (idx_main_v21 i) = ix2 (col i) (0 : Fin 1) := funext fun a => Fin.ext (by
    match a with | ⟨0, _⟩ => rfl | ⟨1, _⟩ => rfl)
  have e3 : idx_main_v23 (idx_main_v24 i) = ix1 (0 : Fin 1) := funext fun a => Fin.ext (by
    match a with | ⟨0, _⟩ => rfl)
  have e4 : i = ix2 (row i) (col i) := funext fun a => Fin.ext (by
    match a with | ⟨0, _⟩ => rfl | ⟨1, _⟩ => rfl)
  rw [val_main_v26_apply, val_main_v25_apply, val_main_v22_apply, val_main_v20_apply, val_main_v21_apply,
    val_main_v19_apply, val_main_v24_apply, val_main_v23_apply, e1, e2, e3]
  unfold causalRef
  rw [← e4]
  rfl

/-- The combined result at an index: the similarity plus the literal times the causal term. -/
theorem final_apply (x0 x1 : FVec Ideal S4096x768 .f32) (x2 : FVec Ideal S768x256 .f32) (x3 : FVec Ideal S256 .f32) (x4 : FVec Ideal S768x256 .f32) (x5 : FVec Ideal S256 .f32) (x6 : FVec Ideal S512x1 .f32) (x7 : FVec Ideal S1 .f32) (x8 : FVec Ideal S4096x4096 .f32) (i : S4096x4096.Idx) :
    val_main_v29 (F := Ideal) x0 x1 x2 x3 x4 x5 x6 x7 x8 i
      = val_main_v14 (F := Ideal) x0 x1 x2 x3 x4 x5 i
        + Ideal.ofBits .f32 0x3E99999A#32 * val_main_v26 (F := Ideal) x0 x1 x2 x3 x4 x5 x6 x7 x8 i := by
  rw [val_main_v29_apply, val_main_v28_apply, val_main_v27_apply, val_main_cst_apply]
  rfl

end Cert.CosineRef

end
-- ==== Proof.NormsPositive.lean ====
/-
  What the precondition says beyond finiteness: every row of the two encoded feature matrices has a positive
  Euclidean norm.

  The precondition is a conjunction of eleven `all`s, associated to the left; its last two conjuncts compare the
  column of row norms `sqrt (sum_k f[r, k]^2)` of `f = x @ W + b` with zero, for the image features and for the text
  features. A conjunction of one-bit words that is 1 has both its parts 1, an `all` that is 1 has every element 1,
  and on the extended reals the comparison `norm > 0` being 1 is the order fact `0 < norm`. The first nine
  conjuncts (finiteness of the inputs) are never opened: the law joining the two programs needs positivity only.
-/
import proofs.«154794_j90598040141832_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.NormsPositive

open Idealize.ShloMosaic Cert.Pre_finite_inputs

variable [Cert.Pre_finite_inputs.Facts]
open Cert.Pre_finite_inputs.Facts

/-- The encoded features `x @ W + b` (the bias broadcast along the rows). -/
def features (x : FVec Ideal S4096x768 .f32) (W : FVec Ideal S768x256 .f32) (b : FVec Ideal S256 .f32) :
    FVec Ideal S4096x256 .f32 :=
  addf (Host.dotGeneral dot_S4096x768_S768x256_S4096x256_1_0_0_1_n_n none x W)
    (broadcastInDim S4096x256 ![0, 1] bcast_S1x256_S4096x256_0_1 (broadcastInDim S1x256 ![1] bcast_S256_S1x256_1 b))

/-- The column of Euclidean row norms of a feature matrix: `sqrt` of the row sums of squares. -/
def rowNorms (f : FVec Ideal S4096x256 .f32) : FVec Ideal S4096x1 .f32 :=
  Host.sqrt (broadcastInDim S4096x1 ![0] bcast_S4096_S4096x1_0
    (Host.reduceAdd (mulf f f) (constant S_ .f32 0x00000000#32) reducesTo_S4096x256_S4096_d1 h_S_))

instance : Subsingleton S_.Idx := ⟨fun a b => funext fun d => d.elim0⟩

theorem ofBool_eq_one (b : Bool) : BitVec.ofBool b = 1#1 ↔ b = true := by cases b <;> decide

/-- An element of `norms > 0` that is 1 says the norm is positive. -/
theorem pos_of_cmp (N : FVec Ideal S4096x1 .f32) (i : S4096x1.Idx)
    (h : cmpf .ogt N (broadcastInDim S4096x1 ![] bcast_S_S4096x1 (constant S_ .f32 0x00000000#32)) i = 1#1) :
    0 < N i := by
  have h' : Ideal.cmp .ogt (N i) (Ideal.ofBits .f32 0x00000000#32) = 1#1 := h
  rw [Ideal.ofBits_zero_f32] at h'
  simpa [Ideal.cmp, ofBool_eq_one] using h'

/-- Under the precondition every row norm of the image features and of the text features is positive. -/
theorem norms_pos (a0 a1 : FVec Ideal S4096x768 .f32) (a2 : FVec Ideal S768x256 .f32) (a3 : FVec Ideal S256 .f32)
    (a4 : FVec Ideal S768x256 .f32) (a5 : FVec Ideal S256 .f32) (a6 : FVec Ideal S512x1 .f32) (a7 : FVec Ideal S1 .f32)
    (a8 : FVec Ideal S4096x4096 .f32)
    (h : fn (F := Ideal) a0 a1 a2 a3 a4 a5 a6 a7 a8 = fun _ => 1#1) :
    (∀ i, 0 < rowNorms (features a0 a2 a3) i) ∧ (∀ i, 0 < rowNorms (features a1 a4 a5) i) := by
  have h0 := congrFun h ValueIdx.ix0
  dsimp only [fn, fn_part1, fn_part2, fn_part3] at h0
  obtain ⟨h12, h2⟩ := IntOp.andi_eq_one.1 h0
  obtain ⟨-, h1⟩ := IntOp.andi_eq_one.1 h12
  exact ⟨fun i => pos_of_cmp _ i (Host.reduce_andi_all _ _ _ _ _ h1 i),
    fun i => pos_of_cmp _ i (Host.reduce_andi_all _ _ _ _ _ h2 i)⟩

end Cert.NormsPositive

end
-- ==== Proof.Bridge.lean ====
/-
  The kernel's three result arrays are the reference's three results, as functions of the argument arrays, wherever
  every row norm of the two encoded feature matrices is positive.

  The region's operands are read back to the shared intermediates: the scaling column is `1 / nF` entry by entry and
  the scaling row is `1 / nT` re-laid (entry `(0, s)` of the row is entry `(s, 0)` of the column, the same row-major
  position); the score column is the image projection plus the bias, the score row the text projection re-laid.
  With these the kernel's arrangement of each entry meets the reference's by the two laws of the specification:
  scaling by the reciprocals of positive norms is dividing by their product, and the strength's three summands
  may be added in either order.
-/
import proofs.«154794_j90598040141832_2_alg».proof.Proof.KernelArrays
import proofs.«154794_j90598040141832_2_alg».proof.Proof.HostArrays
import proofs.«154794_j90598040141832_2_alg».proof.Proof.RefValue
import proofs.«154794_j90598040141832_2_alg».proof.Proof.NormsPositive
import proofs.«154794_j90598040141832_2_alg».proof.Proof.Gen.Pre_finite_inputs
import Idealize.ShloMosaic.Lib.IdealHost
import Idealize.ShloMosaic.Lib.Pipeline.Value

set_option maxHeartbeats 1600000

noncomputable section

namespace Cert.CosineBridge

open Cert.KernelIdeal Cert.KernelIdeal.Gen Idealize.ShloMosaic Idealize.ShloMosaic.TcCoe Idealize.SL.Sem
open Idealize.ShloMosaic.ValueIdx Cert.CosineSpec Cert.CosineKernel Cert.CosineHost
open Cert.ReferenceIdeal.Read (val_main_v3 val_main_v7 val_main_v10 val_main_v11 val_main_v17 val_main_v18 val_main_v14 val_main_v26 val_main_v29)

variable (m : (ℓ : Loc nD τ sig) → Buf (Elt Ideal) ℓ) (c : Dev nD)

/-- The precondition, read on the kernel's argument arrays. -/
abbrev Pre : Prop :=
  Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1

/-- Under the precondition the two norm columns (the reference's stages) are positive. -/
theorem norms_pos (hpre : Pre m c) :
    (∀ i, 0 < val_main_v10 (F := Ideal) (m ((c : Thread nD τ).loc main_arg0)) (m ((c : Thread nD τ).loc main_arg2)) (m ((c : Thread nD τ).loc main_arg3)) i) ∧ (∀ i, 0 < val_main_v11 (F := Ideal) (m ((c : Thread nD τ).loc main_arg1)) (m ((c : Thread nD τ).loc main_arg4)) (m ((c : Thread nD τ).loc main_arg5)) i) :=
  Cert.NormsPositive.norms_pos _ _ _ _ _ _ _ _ _ hpre

/-- The scaling column is the reciprocal of the image norm. -/
theorem invImgNorm_apply (r : Fin 4096) :
    V m c main_v10 (ix2 r (0 : Fin 1)) = Ideal.div 1 (val_main_v10 (F := Ideal) (m ((c : Thread nD τ).loc main_arg0)) (m ((c : Thread nD τ).loc main_arg2)) (m ((c : Thread nD τ).loc main_arg3)) (ix2 r (0 : Fin 1))) :=
  (congrFun (invImgNorms m c) (ix2 r (0 : Fin 1))).trans (by
    show Ideal.div (Ideal.ofBits .f32 0x3F800000#32) _ = _
    rw [Ideal.ofBits_one_f32])

/-- The scaling row is the reciprocal of the text norm, re-laid. -/
theorem invTxtNorm_apply (s : Fin 4096) :
    V m c main_v14 (ix2 (0 : Fin 1) s) = Ideal.div 1 (val_main_v11 (F := Ideal) (m ((c : Thread nD τ).loc main_arg1)) (m ((c : Thread nD τ).loc main_arg4)) (m ((c : Thread nD τ).loc main_arg5)) (ix2 s (0 : Fin 1))) :=
  (congrFun (invTxtNorms m c) (ix2 (0 : Fin 1) s)).trans
    ((shapeCast_apply _ _ (ix2 (0 : Fin 1) s) (ix2 s (0 : Fin 1)) (by
      rw [Shape.rowMajor_val_two, Shape.rowMajor_val_two]
      show s.val * 1 + 0 = 0 * 4096 + s.val
      omega)).trans (by
    show Ideal.div (Ideal.ofBits .f32 0x3F800000#32) _ = _
    rw [Ideal.ofBits_one_f32]))

/-- The score column is the image projection plus the bias. -/
theorem imgScore_apply (r : Fin 4096) :
    V m c main_v20 (ix2 r (0 : Fin 1))
      = val_main_v17 (F := Ideal) (m ((c : Thread nD τ).loc main_arg0)) (m ((c : Thread nD τ).loc main_arg2)) (m ((c : Thread nD τ).loc main_arg3)) (m ((c : Thread nD τ).loc main_arg6)) (ix2 r (0 : Fin 1)) + (m ((c : Thread nD τ).loc main_arg7)) (ix1 (0 : Fin 1)) :=
  (congrFun (imgScore m c) (ix2 r (0 : Fin 1))).trans (by
    show _ + broadcastInDim S4096x1 ![0, 1] bcast_S1x1_S4096x1_0_1 (shapeCast S1x1 (m ((c : Thread nD τ).loc main_arg7)) shapeCasts_S1_S1x1) (ix2 r (0 : Fin 1)) = _
    refine congrArg (_ + ·) ?_
    refine (broadcastInDim_apply _ bcast_S1x1_S4096x1_0_1 _ (ix2 r (0 : Fin 1)) (ix2 (0 : Fin 1) (0 : Fin 1)) (fun a => ?_)).trans ?_
    · match a with
      | ⟨0, _⟩ => show 0 = if (1 : Nat) = 1 then 0 else _; rw [if_pos rfl]
      | ⟨1, _⟩ => show 0 = if (1 : Nat) = 1 then 0 else _; rw [if_pos rfl]
    · exact shapeCast_apply _ _ (ix2 (0 : Fin 1) (0 : Fin 1)) (ix1 (0 : Fin 1)) (by
        rw [Shape.rowMajor_val_one, Shape.rowMajor_val_two]; rfl))

/-- The score row is the text projection, re-laid. -/
theorem txtScore_apply (s : Fin 4096) :
    V m c main_v22 (ix2 (0 : Fin 1) s) = val_main_v18 (F := Ideal) (m ((c : Thread nD τ).loc main_arg1)) (m ((c : Thread nD τ).loc main_arg4)) (m ((c : Thread nD τ).loc main_arg5)) (m ((c : Thread nD τ).loc main_arg6)) (ix2 s (0 : Fin 1)) :=
  (congrFun (txtScore m c) (ix2 (0 : Fin 1) s)).trans
    (shapeCast_apply _ _ (ix2 (0 : Fin 1) s) (ix2 s (0 : Fin 1)) (by
      rw [Shape.rowMajor_val_two, Shape.rowMajor_val_two]
      show s.val * 1 + 0 = 0 * 4096 + s.val
      omega))

/-- The kernel's similarity array is the reference's similarity. -/
theorem sim_eq (hpre : Pre m c) :
    simArr (V m c main_v3) (V m c main_v7) (V m c main_v10) (V m c main_v14)
      = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨hF, hT⟩ := norms_pos m c hpre
  funext i
  rw [Cert.CosineRef.similarity_apply]
  show simScaled (V m c main_v3) (V m c main_v7) (V m c main_v10) (V m c main_v14) (row i) (col i) = _
  rw [imgFeatures m c, txtFeatures m c]
  exact simScaled_eq _ _ _ _ _ _ (invImgNorm_apply m c) (invTxtNorm_apply m c) (fun r => hF _) (fun s => hT _) (row i) (col i)

/-- The kernel's causal array is the reference's causal term. -/
theorem causal_eq :
    causalArr (V m c main_v20) (V m c main_v22) (V m c main_arg8)
      = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [Cert.CosineRef.causal_apply]
  show causalColRow (V m c main_v20) (V m c main_v22) (V m c main_arg8) (row i) (col i) = _
  rw [V_main_arg8 m c]
  exact causalColRow_eq _ _ _ _ _ _ (imgScore_apply m c) (txtScore_apply m c) (row i) (col i)

/-- The kernel's combined array is the reference's combined result. -/
theorem final_eq (hpre : Pre m c) :
    finalArr (V m c main_v3) (V m c main_v7) (V m c main_v10) (V m c main_v14) (V m c main_v20) (V m c main_v22) (V m c main_arg8)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [Cert.CosineRef.final_apply]
  show simArr (V m c main_v3) (V m c main_v7) (V m c main_v10) (V m c main_v14) i
    + Ideal.ofBits .f32 0x3E99999A#32 * causalArr (V m c main_v20) (V m c main_v22) (V m c main_arg8) i = _
  rw [sim_eq m c hpre, causal_eq m c]

end Cert.CosineBridge

end
-- ==== Proof.lean ====
/-
  The certificate of a cosine-similarity / causal-strength edge scorer: a tiled kernel that scores every
  (image, text) pair of a batch of 4096 against the plain array program.

  Both programs encode the images and the texts (`x @ W + b`, 256 features each) with the same host operations.
  The reference then forms  similarity = (F T^t) / (nF nT^t)  with the columns nF, nT of Euclidean row norms,
  causal = E * ((F w1 + (T w2)^t) + b)  and  final = similarity + c * causal  on whole 4096 x 4096 arrays. The
  kernel precomputes the reciprocals 1 / nF and 1 / nT and the two projections on the host, and on a 4 x 4 grid of
  1024 x 1024 tiles forms  ((F T^t) * (1/nF)) * (1/nT),  E * ((F w1 + b) + (T w2)^t)  and their combination.

  On the extended reals the two agree exactly where no row norm vanishes: with a zero norm the reference's entry is
  0 / 0 while the kernel's is 0 * (1/0) — different junk — so the claim is stated where every row norm is positive
  (a row of all-zero features has no cosine similarity). There scaling by the two reciprocals is dividing by the
  product of the norms (the inverse is multiplicative off zero, at +infinity too), and the strength's summands may be
  added in any order; nothing else separates the programs, and finiteness of the inputs is never used.

  The modules: CosineLaw (the two laws), NormsPositive (the positivity read out of the precondition), Spec (the
  results as functions of the shared intermediates, in both arrangements), BodyValue / TileValue (what one grid
  point stores), KernelArrays (tiles to whole arrays), HostArrays (the region's operands as terms of the
  arguments), RefValue (the reference's results at an index), Bridge (the two sides are one function). The frames
  and the kernel's run, tile by tile, are the generated modules'.
-/
import proofs.«154794_j90598040141832_2_alg».proof.Defs
import proofs.«154794_j90598040141832_2_alg».proof.Proof.Gen.Kernel
import proofs.«154794_j90598040141832_2_alg».proof.Proof.Gen.Kernel.Skeleton
import proofs.«154794_j90598040141832_2_alg».proof.Proof.Gen.Kernel.Launch
import proofs.«154794_j90598040141832_2_alg».proof.Proof.Gen.Kernel.Points
import proofs.«154794_j90598040141832_2_alg».proof.Proof.Gen.Kernel.Frame
import proofs.«154794_j90598040141832_2_alg».proof.Proof.Gen.KernelIdeal
import proofs.«154794_j90598040141832_2_alg».proof.Proof.Gen.KernelIdeal.Skeleton
import proofs.«154794_j90598040141832_2_alg».proof.Proof.Gen.KernelIdeal.Launch
import proofs.«154794_j90598040141832_2_alg».proof.Proof.Gen.KernelIdeal.Points
import proofs.«154794_j90598040141832_2_alg».proof.Proof.Gen.KernelIdeal.Frame
import proofs.«154794_j90598040141832_2_alg».proof.Proof.Gen.ReferenceIdeal
import proofs.«154794_j90598040141832_2_alg».proof.Proof.Gen.KernelIdeal.Value
import proofs.«154794_j90598040141832_2_alg».proof.Proof.Gen.ReferenceIdeal.Run
import proofs.«154794_j90598040141832_2_alg».proof.Proof.Gen.ReferenceIdeal.Read
import proofs.«154794_j90598040141832_2_alg».proof.Proof.Gen.Pre_finite_inputs
import proofs.«154794_j90598040141832_2_alg».proof.Proof.Bridge
import Idealize.ShloMosaic.Adequacy
import Idealize.ShloMosaic.Init

set_option maxHeartbeats 1600000

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the reference's three stage functions of the (shared) argument arrays: the kernel's
    arrays by the tiles-to-array theorems and the bridge, under the positivity the precondition gives; the
    reference's by its run, the arguments' agreement rewritten. -/
theorem algebraic : Cert.algebraic_KernelIdeal_ReferenceIdeal := by
  intro m ρ m' ρ' hpre hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Value.run_blocks m ρ)
    obtain ⟨h7, h8, h9, hargs⟩ := h c
    exact ⟨h7.trans ((Cert.CosineKernel.final_arr m c).trans (Cert.CosineBridge.final_eq m c (hpre c))),
      h8.trans ((Cert.CosineKernel.sim_arr m c).trans (Cert.CosineBridge.sim_eq m c (hpre c))),
      h9.trans ((Cert.CosineKernel.causal_arr m c).trans (Cert.CosineBridge.causal_eq m c)), hargs⟩
  · refine (θ_run Cert.ReferenceIdeal.defs _ _).mono (fun r h c => ?_) (Cert.ReferenceIdeal.Value.run (F := Ideal) m' ρ')
    obtain ⟨h29, h14, h26, hargs⟩ := h c
    obtain ⟨e0, e1, e2, e3, e4, e5, e6, e7, e8⟩ := hagree c
    refine ⟨h29.trans ?_, h14.trans ?_, h26.trans ?_, hargs⟩
    · rw [e0, e1, e2, e3, e4, e5, e6, e7, e8]
      exact Cert.ReferenceIdeal.Read.val_main_v29_eq _ _ _ _ _ _ _ _ _
    · rw [e0, e1, e2, e3, e4, e5]
      exact Cert.ReferenceIdeal.Read.val_main_v14_eq _ _ _ _ _ _
    · rw [e0, e1, e2, e3, e4, e5, e6, e7, e8]
      exact Cert.ReferenceIdeal.Read.val_main_v26_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
